-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S8x16x4096 : Shape := ⟨3, ![8, 16, 4096]⟩
abbrev S8x4096x16 : Shape := ⟨3, ![8, 4096, 16]⟩
abbrev S8 : Shape := ⟨1, ![8]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x16x4096 : S_.BroadcastsInDim S8x16x4096 (![] : Fin 0 → Fin S8x16x4096.rank)
  reducesTo_S8x16x4096_S_d0_1_2 : S8x16x4096.ReducesTo [0, 1, 2] S_
  bcast_S_S8x4096x16 : S_.BroadcastsInDim S8x4096x16 (![] : Fin 0 → Fin S8x4096x16.rank)
  reducesTo_S8x4096x16_S_d0_1_2 : S8x4096x16.ReducesTo [0, 1, 2] S_

variable [Facts]

def fn_part1 {F : FTy → Type} [FloatOps F] (main_arg4 : FVec F S8x4096x16 .f32) (main_v13 : IVec S_ 1) (main_v16 : IVec S8x16x4096 1) : IVec S_ 1 :=
  let main_c_5 : IVec S_ 1 := constantI S_ 1 1#1
  let main_v17 : IVec S_ 1 := (fun x v => Host.reduce IntOp.andi x v reducesTo_S8x16x4096_S_d0_1_2 h_S_) main_v16 main_c_5
  let main_v18 : IVec S_ 1 := andi main_v13 main_v17
  let main_v19 : FVec F S8x4096x16 .f32 := Host.absf main_arg4
  let main_cst_6 : FVec F S_ .f32 := constant S_ .f32 0x7F800000#32
  let main_v20 : FVec F S8x4096x16 .f32 := broadcastInDim S8x4096x16 ![] bcast_S_S8x4096x16 main_cst_6
  let main_v21 : IVec S8x4096x16 1 := cmpf .olt main_v19 main_v20
  let main_c_7 : IVec S_ 1 := constantI S_ 1 1#1
  let main_v22 : IVec S_ 1 := (fun x v => Host.reduce IntOp.andi x v reducesTo_S8x4096x16_S_d0_1_2 h_S_) main_v21 main_c_7
  let main_v23 : IVec S_ 1 := andi main_v18 main_v22
  main_v23

def fn {F : FTy → Type} [FloatOps F] (main_arg0 : FVec F S8x2048x4096 .f32) (main_arg1 : FVec F S4096x4096 .f32) (main_arg2 : FVec F S4096 .f32) (main_arg3 : FVec F S8x16x4096 .f32) (main_arg4 : FVec F S8x4096x16 .f32) (main_arg5 : IVec S8 32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x16x4096 .f32 := Host.absf main_arg3
  let main_cst_4 : FVec F S_ .f32 := constant S_ .f32 0x7F800000#32
  let main_v15 : FVec F S8x16x4096 .f32 := broadcastInDim S8x16x4096 ![] bcast_S_S8x16x4096 main_cst_4
  let main_v16 : IVec S8x16x4096 1 := cmpf .olt main_v14 main_v15
  fn_part1 (F := F) main_arg4 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S8x16x4096 : Shape := ⟨3, ![8, 16, 4096]⟩
abbrev S8x4096x16 : Shape := ⟨3, ![8, 4096, 16]⟩
abbrev S8 : Shape := ⟨1, ![8]⟩
abbrev S1x4096 : Shape := ⟨2, ![1, 4096]⟩
abbrev S_ : Shape := ⟨0, ![]⟩
abbrev S8x1 : Shape := ⟨2, ![8, 1]⟩
abbrev S1x512x4096 : Shape := ⟨3, ![1, 512, 4096]⟩
abbrev S4096x1024 : Shape := ⟨2, ![4096, 1024]⟩
abbrev S1x1024 : Shape := ⟨2, ![1, 1024]⟩
abbrev S1x4096x16 : Shape := ⟨3, ![1, 4096, 16]⟩
abbrev S1x16x1024 : Shape := ⟨3, ![1, 16, 1024]⟩
abbrev S1x512x1024 : Shape := ⟨3, ![1, 512, 1024]⟩
abbrev S512x4096 : Shape := ⟨2, ![512, 4096]⟩
abbrev S512x1024 : Shape := ⟨2, ![512, 1024]⟩
abbrev S4096x16 : Shape := ⟨2, ![4096, 16]⟩
abbrev S16x1024 : Shape := ⟨2, ![16, 1024]⟩
abbrev S512x16 : Shape := ⟨2, ![512, 16]⟩

abbrev nBuf : Space → Nat
  | .hbm => 33
  | .vmem => 12
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8x16x4096, .f32⟩
  | .hbm, ⟨4, _⟩ => ⟨S8x4096x16, .f32⟩
  | .hbm, ⟨5, _⟩ => ⟨S8, .i32⟩
  | .hbm, ⟨6, _⟩ => ⟨S8x2048x4096, .bf16⟩
  | .hbm, ⟨7, _⟩ => ⟨S4096x4096, .f32⟩
  | .hbm, ⟨8, _⟩ => ⟨S4096x4096, .bf16⟩
  | .hbm, ⟨9, _⟩ => ⟨S1x4096, .f32⟩
  | .hbm, ⟨10, _⟩ => ⟨S_, .i32⟩
  | .hbm, ⟨11, _⟩ => ⟨S8, .i32⟩
  | .hbm, ⟨12, _⟩ => ⟨S8, .i1⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S8x1, .i32⟩
  | .hbm, ⟨18, _⟩ => ⟨S8x16x4096, .f32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S8x1, .i32⟩
  | .hbm, ⟨27, _⟩ => ⟨S8x4096x16, .f32⟩
  | .hbm, ⟨28, _⟩ => ⟨S8x4096x16, .f32⟩
  | .hbm, ⟨29, _⟩ => ⟨S8x4096x16, .bf16⟩
  | .hbm, ⟨30, _⟩ => ⟨S8x16x4096, .f32⟩
  | .hbm, ⟨31, _⟩ => ⟨S8x16x4096, .bf16⟩
  | .hbm, ⟨32, _⟩ => ⟨S8x2048x4096, .f32⟩
  | .local _ .vmem, ⟨0, _⟩ => ⟨S1x512x4096, .bf16⟩
  | .local _ .vmem, ⟨1, _⟩ => ⟨S1x512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1x4096x16, .bf16⟩
  | .local _ .vmem, ⟨7, _⟩ => ⟨S1x4096x16, .bf16⟩
  | .local _ .vmem, ⟨8, _⟩ => ⟨S1x16x1024, .bf16⟩
  | .local _ .vmem, ⟨9, _⟩ => ⟨S1x16x1024, .bf16⟩
  | .local _ .vmem, ⟨10, _⟩ => ⟨S1x512x1024, .f32⟩
  | .local _ .vmem, ⟨11, _⟩ => ⟨S1x512x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x4096x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bitsLt_bf16_f32 : FTy.bits .bf16 < FTy.bits .f32
  transposes_S4096x4096_S4096x4096_1_0 : S4096x4096.Transposes [1, 0] S4096x4096
  shapeCasts_S4096_S1x4096 : S4096.ShapeCasts S1x4096
  bcast_S_S8 : S_.BroadcastsInDim S8 (![] : Fin 0 → Fin S8.rank)
  bcast_S8_S8x1_0 : S8.BroadcastsInDim S8x1 (![0] : Fin 1 → Fin S8x1.rank)
  transposes_S8x16x4096_S8x4096x16_0_2_1 : S8x16x4096.Transposes [0, 2, 1] S8x4096x16
  transposes_S8x4096x16_S8x16x4096_0_2_1 : S8x4096x16.Transposes [0, 2, 1] S8x16x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x4096x16_S1x4096x16_0_0_0 : ∀ a, (![0, 0, 0] : Fin 3 → Nat) a + S1x4096x16.size a ≤ S1x4096x16.size a
  h_S1x4096x16 : 0 < S1x4096x16.numel
  shapeCasts_S1x4096x16_S4096x16 : S1x4096x16.ShapeCasts S4096x16
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  gather_S8x16x4096_S8x1_S8x16x4096_12_0_n_n_0_1_1164096_wf : GatherDims.WF S8x16x4096 S8x1 S8x16x4096 [1, 2] [0] [] [0] [] 1 ![1, 16, 4096]
  gather_S8x4096x16_S8x1_S8x4096x16_12_0_n_n_0_1_1409616_wf : GatherDims.WF S8x4096x16 S8x1 S8x4096x16 [1, 2] [0] [] [0] [] 1 ![1, 4096, 16]
  dot_S512x4096_S4096x1024_S512x1024_1_0_0_1_n_n_wf : DotDims.WF S512x4096 S4096x1024 S512x1024 [1] [0] [0] [1] [] []
  dot_S512x4096_S4096x16_S512x16_1_0_0_1_n_n_wf : DotDims.WF S512x4096 S4096x16 S512x16 [1] [0] [0] [1] [] []
  dot_S512x16_S16x1024_S512x1024_1_0_0_1_n_n_wf : DotDims.WF S512x16 S16x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x2048x4096.size a
  hwx0_0 : ∀ i : grid0.Coords, EltTy.bits .bf16 = 32 ∨ (Rect.block (s := S8x2048x4096) S1x512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x16.size a ≤ S8x4096x16.size a
  hwx0_3 : ∀ i : grid0.Coords, EltTy.bits .bf16 = 32 ∨ (Rect.block (s := S8x4096x16) S1x4096x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x1024.size a ≤ S8x16x4096.size a
  hwx0_4 : ∀ i : grid0.Coords, EltTy.bits .bf16 = 32 ∨ (Rect.block (s := S8x16x4096) S1x16x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x2048x4096.size a
  hwx0_5 : ∀ i : grid0.Coords, EltTy.bits .f32 = 32 ∨ (Rect.block (s := S8x2048x4096) S1x512x1024.size (cc0_transform_5 i) (hinb0_5 i)).WholeWords (EltTy.packing .f32)

variable [Facts₀]

def gather_S8x16x4096_S8x1_S8x16x4096_12_0_n_n_0_1_1164096 : GatherDims S8x16x4096 S8x1 S8x16x4096 where
  offsetDims := [1, 2]
  collapsedSliceDims := [0]
  operandBatchingDims := []
  startIndicesBatchingDims := []
  startIndexMap := [0]
  indexVectorDim := 1
  sliceSizes := ![1, 16, 4096]
  wf := gather_S8x16x4096_S8x1_S8x16x4096_12_0_n_n_0_1_1164096_wf
def gather_S8x4096x16_S8x1_S8x4096x16_12_0_n_n_0_1_1409616 : GatherDims S8x4096x16 S8x1 S8x4096x16 where
  offsetDims := [1, 2]
  collapsedSliceDims := [0]
  operandBatchingDims := []
  startIndicesBatchingDims := []
  startIndexMap := [0]
  indexVectorDim := 1
  sliceSizes := ![1, 4096, 16]
  wf := gather_S8x4096x16_S8x1_S8x4096x16_12_0_n_n_0_1_1409616_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def dot_S512x4096_S4096x16_S512x16_1_0_0_1_n_n : DotDims S512x4096 S4096x16 S512x16 where
  lhsContracting := [1]
  rhsContracting := [0]
  lhsNonContracting := [0]
  rhsNonContracting := [1]
  lhsBatch := []
  rhsBatch := []
  wf := dot_S512x4096_S4096x16_S512x16_1_0_0_1_n_n_wf
def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x4096x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x16x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S8x16x4096 : Shape := ⟨3, ![8, 16, 4096]⟩
abbrev S8x4096x16 : Shape := ⟨3, ![8, 4096, 16]⟩
abbrev S8 : Shape := ⟨1, ![8]⟩
abbrev S1x1x4096 : Shape := ⟨3, ![1, 1, 4096]⟩
abbrev S_ : Shape := ⟨0, ![]⟩
abbrev S8x1 : Shape := ⟨2, ![8, 1]⟩
abbrev S8x2048x16 : Shape := ⟨3, ![8, 2048, 16]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8x16x4096, .f32⟩
  | .hbm, ⟨4, _⟩ => ⟨S8x4096x16, .f32⟩
  | .hbm, ⟨5, _⟩ => ⟨S8, .i32⟩
  | .hbm, ⟨6, _⟩ => ⟨S8x2048x4096, .f32⟩
  | .hbm, ⟨7, _⟩ => ⟨S1x1x4096, .f32⟩
  | .hbm, ⟨8, _⟩ => ⟨S8x2048x4096, .f32⟩
  | .hbm, ⟨9, _⟩ => ⟨S8x2048x4096, .f32⟩
  | .hbm, ⟨10, _⟩ => ⟨S_, .i32⟩
  | .hbm, ⟨11, _⟩ => ⟨S8, .i32⟩
  | .hbm, ⟨12, _⟩ => ⟨S8, .i1⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S8x1, .i32⟩
  | .hbm, ⟨18, _⟩ => ⟨S8x16x4096, .f32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S8x1, .i32⟩
  | .hbm, ⟨27, _⟩ => ⟨S8x4096x16, .f32⟩
  | .hbm, ⟨28, _⟩ => ⟨S8x2048x16, .f32⟩
  | .hbm, ⟨29, _⟩ => ⟨S8x2048x4096, .f32⟩
  | .hbm, ⟨30, _⟩ => ⟨S_, .f32⟩
  | .hbm, ⟨31, _⟩ => ⟨S8x2048x4096, .f32⟩
  | .hbm, ⟨32, _⟩ => ⟨S8x2048x4096, .f32⟩
  | .hbm, ⟨33, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8 : S_.BroadcastsInDim S8 (![] : Fin 0 → Fin S8.rank)
  bcast_S8_S8x1_0 : S8.BroadcastsInDim S8x1 (![0] : Fin 1 → Fin S8x1.rank)
  bcast_S_S8x2048x4096 : S_.BroadcastsInDim S8x2048x4096 (![] : Fin 0 → Fin S8x2048x4096.rank)
  dot_S8x2048x4096_S4096x4096_S8x2048x4096_2_1_01_0_n_n_wf : DotDims.WF S8x2048x4096 S4096x4096 S8x2048x4096 [2] [1] [0, 1] [0] [] []
  gather_S8x16x4096_S8x1_S8x16x4096_12_0_n_n_0_1_1164096_wf : GatherDims.WF S8x16x4096 S8x1 S8x16x4096 [1, 2] [0] [] [0] [] 1 ![1, 16, 4096]
  gather_S8x4096x16_S8x1_S8x4096x16_12_0_n_n_0_1_1409616_wf : GatherDims.WF S8x4096x16 S8x1 S8x4096x16 [1, 2] [0] [] [0] [] 1 ![1, 4096, 16]
  dot_S8x2048x4096_S8x16x4096_S8x2048x16_2_2_1_1_0_0_wf : DotDims.WF S8x2048x4096 S8x16x4096 S8x2048x16 [2] [2] [1] [1] [0] [0]
  dot_S8x2048x16_S8x4096x16_S8x2048x4096_2_2_1_1_0_0_wf : DotDims.WF S8x2048x16 S8x4096x16 S8x2048x4096 [2] [2] [1] [1] [0] [0]

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf
def gather_S8x16x4096_S8x1_S8x16x4096_12_0_n_n_0_1_1164096 : GatherDims S8x16x4096 S8x1 S8x16x4096 where
  offsetDims := [1, 2]
  collapsedSliceDims := [0]
  operandBatchingDims := []
  startIndicesBatchingDims := []
  startIndexMap := [0]
  indexVectorDim := 1
  sliceSizes := ![1, 16, 4096]
  wf := gather_S8x16x4096_S8x1_S8x16x4096_12_0_n_n_0_1_1164096_wf
def gather_S8x4096x16_S8x1_S8x4096x16_12_0_n_n_0_1_1409616 : GatherDims S8x4096x16 S8x1 S8x4096x16 where
  offsetDims := [1, 2]
  collapsedSliceDims := [0]
  operandBatchingDims := []
  startIndicesBatchingDims := []
  startIndexMap := [0]
  indexVectorDim := 1
  sliceSizes := ![1, 4096, 16]
  wf := gather_S8x4096x16_S8x1_S8x4096x16_12_0_n_n_0_1_1409616_wf
def dot_S8x2048x4096_S8x16x4096_S8x2048x16_2_2_1_1_0_0 : DotDims S8x2048x4096 S8x16x4096 S8x2048x16 where
  lhsContracting := [2]
  rhsContracting := [2]
  lhsNonContracting := [1]
  rhsNonContracting := [1]
  lhsBatch := [0]
  rhsBatch := [0]
  wf := dot_S8x2048x4096_S8x16x4096_S8x2048x16_2_2_1_1_0_0_wf
def dot_S8x2048x16_S8x4096x16_S8x2048x4096_2_2_1_1_0_0 : DotDims S8x2048x16 S8x4096x16 S8x2048x4096 where
  lhsContracting := [2]
  rhsContracting := [2]
  lhsNonContracting := [1]
  rhsNonContracting := [1]
  lhsBatch := [0]
  rhsBatch := [0]
  wf := dot_S8x2048x16_S8x4096x16_S8x2048x4096_2_2_1_1_0_0_wf

class Facts : Prop extends Facts₀ where

variable [Facts]
-- ==== Proof.Spec.lean ====
/-
  The routed low-rank-adapted linear layer, entry by entry.

  For a batch `bb`, a sequence position `s` and an output feature `o` the layer's value is

      (Σ_d x[bb,s,d] · W[o,d]  +  b[o])  +  (Σ_r (Σ_d x[bb,s,d] · A[bb,r,d]) · B[bb,o,r]) · scale

  where `A` and `B` are the low-rank factors ALREADY SELECTED for each batch (row `bb` of each is the factor of the
  expert that batch is routed to): how the rows were selected plays no part here, so the selection stays outside this
  file.  `entry` states that value over the layer's own arrays; `tiledEntry` states it over the re-laid operands a tiled
  computation is handed (`W` transposed, the bias as a one-row array, the two factors with their last two axes
  swapped).  The two agree whenever the re-laid operands are those re-layings, with the sums and products as they
  stand: no law of the extended reals beyond rewriting equal entries is used.
-/
import Idealize.ShloMosaic.PureOps.Ideal
import Idealize.ShloMosaic.Lib.ValueIdx

noncomputable section

open scoped BigOperators

namespace Cert.RoutedLora

open Idealize.ShloMosaic Idealize.ShloMosaic.ValueIdx

/-- The adapter's scaling factor α / r = 32 / 16, as the f32 word both programs print for it. -/
abbrev scale : EReal := Ideal.ofBits .f32 0x40000000#32

abbrev ShX : Shape := ⟨3, ![8, 2048, 4096]⟩
abbrev ShW : Shape := ⟨2, ![4096, 4096]⟩
abbrev ShB : Shape := ⟨1, ![4096]⟩
abbrev ShA : Shape := ⟨3, ![8, 16, 4096]⟩
abbrev ShBt : Shape := ⟨3, ![8, 4096, 16]⟩
abbrev ShBias : Shape := ⟨2, ![1, 4096]⟩

/-- The layer at entry `(bb, s, o)`: the frozen linear map plus its bias, plus the scaled two-step low-rank update of
    batch `bb`'s expert. -/
def entry (x : ShX.Idx → EReal) (W : ShW.Idx → EReal) (b : ShB.Idx → EReal) (A : ShA.Idx → EReal) (B : ShBt.Idx → EReal)
    (bb : Fin 8) (s : Fin 2048) (o : Fin 4096) : EReal :=
  ((∑ d : Fin 4096, x (ix3 bb s d) * W (ix2 o d)) + b (ix1 o))
    + (∑ r : Fin 16, (∑ d : Fin 4096, x (ix3 bb s d) * A (ix3 bb r d)) * B (ix3 bb o r)) * scale

/-- The whole result array. -/
def layer (x : ShX.Idx → EReal) (W : ShW.Idx → EReal) (b : ShB.Idx → EReal) (A : ShA.Idx → EReal) (B : ShBt.Idx → EReal) :
    ShX.Idx → EReal :=
  fun i => entry x W b A B (i 0) (i 1) (i 2)

/-- The same entry over re-laid operands: `Wt[d,o]`, a one-row bias, `At[bb,d,r]`, `Bt[bb,r,o]`. -/
def tiledEntry (x : ShX.Idx → EReal) (Wt : ShW.Idx → EReal) (bias : ShBias.Idx → EReal) (At : ShBt.Idx → EReal)
    (Bt : ShA.Idx → EReal) (bb : Fin 8) (s : Fin 2048) (o : Fin 4096) : EReal :=
  ((∑ d : Fin 4096, x (ix3 bb s d) * Wt (ix2 d o)) + bias (ix2 (0 : Fin 1) o))
    + (∑ r : Fin 16, (∑ d : Fin 4096, x (ix3 bb s d) * At (ix3 bb d r)) * Bt (ix3 bb r o)) * scale

/-- The whole result array over the re-laid operands. -/
def tiledLayer (x : ShX.Idx → EReal) (Wt : ShW.Idx → EReal) (bias : ShBias.Idx → EReal) (At : ShBt.Idx → EReal)
    (Bt : ShA.Idx → EReal) : ShX.Idx → EReal :=
  fun i => tiledEntry x Wt bias At Bt (i 0) (i 1) (i 2)

/-- One tile of that computation: a block of 512 consecutive positions of one batch (`x`, a one-batch slab), 1024
    consecutive output features of `Wt` and of the bias row, and the batch's two factors (one-batch slabs, the second cut
    to the same 1024 features), at row `p` and column `q` of the tile. -/
def tileEntry (x : (⟨3, ![1, 512, 4096]⟩ : Shape).Idx → EReal) (wt : (⟨2, ![4096, 1024]⟩ : Shape).Idx → EReal)
    (bias : (⟨2, ![1, 1024]⟩ : Shape).Idx → EReal) (lo : (⟨3, ![1, 4096, 16]⟩ : Shape).Idx → EReal)
    (up : (⟨3, ![1, 16, 1024]⟩ : Shape).Idx → EReal) (p : Fin 512) (q : Fin 1024) : EReal :=
  ((∑ d : Fin 4096, x (ix3 (0 : Fin 1) p d) * wt (ix2 d q)) + bias (ix2 (0 : Fin 1) q))
    + (∑ r : Fin 16, (∑ d : Fin 4096, x (ix3 (0 : Fin 1) p d) * lo (ix3 (0 : Fin 1) d r)) * up (ix3 (0 : Fin 1) r q)) * scale

/-- When the re-laid operands are the transposes (and the one-row view) of the layer's own, the two spellings agree at
    every entry: every summand is rewritten to an equal one. -/
theorem tiledEntry_eq_entry (x : ShX.Idx → EReal) (W : ShW.Idx → EReal) (b : ShB.Idx → EReal) (A : ShA.Idx → EReal)
    (B : ShBt.Idx → EReal) (Wt : ShW.Idx → EReal) (bias : ShBias.Idx → EReal) (At : ShBt.Idx → EReal) (Bt : ShA.Idx → EReal)
    (hW : ∀ (d o : Fin 4096), Wt (ix2 d o) = W (ix2 o d))
    (hb : ∀ o : Fin 4096, bias (ix2 (0 : Fin 1) o) = b (ix1 o))
    (hA : ∀ (bb : Fin 8) (d : Fin 4096) (r : Fin 16), At (ix3 bb d r) = A (ix3 bb r d))
    (hB : ∀ (bb : Fin 8) (r : Fin 16) (o : Fin 4096), Bt (ix3 bb r o) = B (ix3 bb o r))
    (bb : Fin 8) (s : Fin 2048) (o : Fin 4096) :
    tiledEntry x Wt bias At Bt bb s o = entry x W b A B bb s o := by
  unfold tiledEntry entry
  simp only [hW, hb, hA, hB]

/-- So they are one array. -/
theorem tiledLayer_eq_layer (x : ShX.Idx → EReal) (W : ShW.Idx → EReal) (b : ShB.Idx → EReal) (A : ShA.Idx → EReal)
    (B : ShBt.Idx → EReal) (Wt : ShW.Idx → EReal) (bias : ShBias.Idx → EReal) (At : ShBt.Idx → EReal) (Bt : ShA.Idx → EReal)
    (hW : ∀ (d o : Fin 4096), Wt (ix2 d o) = W (ix2 o d))
    (hb : ∀ o : Fin 4096, bias (ix2 (0 : Fin 1) o) = b (ix1 o))
    (hA : ∀ (bb : Fin 8) (d : Fin 4096) (r : Fin 16), At (ix3 bb d r) = A (ix3 bb r d))
    (hB : ∀ (bb : Fin 8) (r : Fin 16) (o : Fin 4096), Bt (ix3 bb r o) = B (ix3 bb o r)) :
    tiledLayer x Wt bias At Bt = layer x W b A B :=
  funext fun i => tiledEntry_eq_entry x W b A B Wt bias At Bt hW hb hA hB (i 0) (i 1) (i 2)

end Cert.RoutedLora

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«167771_j2843268350541_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.LibFlatten3.lean ====
/-
  Layout facts met when a three-axis array `[a, b, c]` is handled as a matrix of `a · b` rows: the cast that
  flattens its two leading axes into one (row `i · b + j` is the old `(i, j)`) and the cast back; one `[b, c]` slab
  `[1, b, c]` spread along a new leading axis to `[a, b, c]`; and one vector `[c]` viewed as `[1, 1, c]` and spread
  over both leading axes to `[a, b, c]`. Each is read at an entry given by its coordinates. They hold for any extents
  and for entries of any type.
-/
import Idealize.ShloMosaic.Lib.Pipeline.Value
import Idealize.ShloMosaic.Lib.ValueIdx

noncomputable section

namespace Cert.LibFlatten3

open Idealize.ShloMosaic Idealize.ShloMosaic.ValueIdx

variable {α : Type}

/-- An `[a, b, c]` array cast to `[m, c]` (with `m = a · b`) reads, at `(ρ, k)` with `ρ = i · b + j`, the operand at
    `(i, j, k)`: the same row-major position. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (ρ : Fin m)
    (hρ : ρ.val = i.val * b + j.val) :
    shapeCast ⟨2, ![m, c]⟩ x h (ix2 ρ k) = x (ix3 i j k) :=
  shapeCast_apply x h _ _ (by
    rw [Shape.rowMajor_val_two, Shape.rowMajor_val_three]
    show (i.val * b + j.val) * c + k.val = ρ.val * c + k.val
    rw [hρ])

/-- An `[m, c]` array (with `m = a · b`) cast to `[a, b, c]` reads, at `(i, j, k)`, the operand at row `ρ = i · b + j`,
    column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (ρ : Fin m)
    (hρ : ρ.val = i.val * b + j.val) :
    shapeCast ⟨3, ![a, b, c]⟩ x h (ix3 i j k) = x (ix2 ρ k) :=
  shapeCast_apply x h _ _ (by
    rw [Shape.rowMajor_val_two, Shape.rowMajor_val_three]
    show ρ.val * c + k.val = (i.val * b + j.val) * c + k.val
    rw [hρ])

/-- A `[1, b, c]` array spread to `[a, b, c]` reads, at `(i, j, k)`, the operand at `(0, j, k)`: the same for every `i`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    rw [hu, hv]
    omega)

/-- A `[1, 1, c]` array spread to `[a, b, c]` reads, at `(i, j, k)`, the operand's entry `k`: the same for every `(i, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibFlatten3

end
-- ==== Proof.TileValue.lean ====
/-
  What the kernel body computes for one tile, entry by entry.

  The body is handed a [1, 512, 4096] slab of `x`, a [4096, 1024] block of the transposed weights, a [1, 1024] piece of
  the bias row, and the batch's two low-rank factors as [1, 4096, 16] and [1, 16, 1024] slabs.  It drops the leading unit
  axes, forms three matrix products into zero accumulators (the slab against the weights; the slab against the first
  factor; that product, narrowed to bf16, against the second factor), and stores

      (x·Wt + bias row spread over the 512 rows) + (x·lo)·up · scale

  with a leading unit axis put back.  Over the extended reals a change of float format is the identity and each product
  into zero is the plain sum over the contracted axis, so the entry at (p, q) is `tileEntry` of the five blocks.
-/
import proofs.«167771_j2843268350541_1_alg».proof.Proof.Gen.KernelIdeal.Skeleton
import proofs.«167771_j2843268350541_1_alg».proof.Proof.Spec
import proofs.«167771_j2843268350541_1_alg».proof.Proof.LibPlainDotFormats
import proofs.«167771_j2843268350541_1_alg».proof.Proof.LibRowLayout
import proofs.«167771_j2843268350541_1_alg».proof.Proof.LibFlatten3
import Idealize.ShloMosaic.Lib.Pipeline.Value
import Idealize.ShloMosaic.Lib.ValueIdx

noncomputable section

open scoped BigOperators

namespace Cert.RoutedLora

open Idealize.ShloMosaic Idealize.ShloMosaic.ValueIdx Cert.KernelIdeal Cert.KernelIdeal.Gen

/-- The three contractions are plain matrix products: second axis of the left against first axis of the right. -/
theorem plain_base : LibPlainDot.Plain dot_S512x4096_S4096x1024_S512x1024_1_0_0_1_n_n := ⟨rfl, rfl, rfl, rfl, rfl, rfl⟩
theorem plain_low : LibPlainDot.Plain dot_S512x4096_S4096x16_S512x16_1_0_0_1_n_n := ⟨rfl, rfl, rfl, rfl, rfl, rfl⟩
theorem plain_up : LibPlainDot.Plain dot_S512x16_S16x1024_S512x1024_1_0_0_1_n_n := ⟨rfl, rfl, rfl, rfl, rfl, rfl⟩

/-- The one-batch slab of `x` seen as a matrix: row `p`, column `d` is the slab's entry (0, p, d). -/
theorem rows_apply (x0 : FVec Ideal S1x512x4096 .bf16) (p : Fin 512) (d : Fin 4096) :
    shapeCast S512x4096 x0 shapeCasts_S1x512x4096_S512x4096 (ix2 p d) = x0 (ix3 (0 : Fin 1) p d) :=
  LibFlatten3.shapeCast_abc_mc_apply x0 _ (0 : Fin 1) p d p (by show p.val = 0 * 512 + p.val; omega)

/-- The first factor's slab seen as a matrix. -/
theorem low_rows_apply (x7 : FVec Ideal S1x4096x16 .bf16) (d : Fin 4096) (r : Fin 16) :
    shapeCast S4096x16 x7 shapeCasts_S1x4096x16_S4096x16 (ix2 d r) = x7 (ix3 (0 : Fin 1) d r) :=
  LibFlatten3.shapeCast_abc_mc_apply x7 _ (0 : Fin 1) d r d (by show d.val = 0 * 4096 + d.val; omega)

/-- The second factor's slab seen as a matrix. -/
theorem up_rows_apply (x9 : FVec Ideal S1x16x1024 .bf16) (r : Fin 16) (q : Fin 1024) :
    shapeCast S16x1024 x9 shapeCasts_S1x16x1024_S16x1024 (ix2 r q) = x9 (ix3 (0 : Fin 1) r q) :=
  LibFlatten3.shapeCast_abc_mc_apply x9 _ (0 : Fin 1) r q r (by show r.val = 0 * 16 + r.val; omega)

/-- The frozen linear map on the tile: Σ_d x(0,p,d) · Wt(d,q). -/
theorem base_apply (x0 : FVec Ideal S1x512x4096 .bf16) (x2 : FVec Ideal S4096x1024 .bf16) (p : Fin 512) (q : Fin 1024) :
    matmul (F := Ideal) dot_S512x4096_S4096x1024_S512x1024_1_0_0_1_n_n none
        (shapeCast S512x4096 x0 shapeCasts_S1x512x4096_S512x4096) (shapeCast S4096x1024 x2 shapeCasts_S4096x1024_S4096x1024)
        (constant (F := Ideal) S512x1024 .f32 0x00000000#32) (ix2 p q)
      = ∑ d : Fin 4096, (x0 (ix3 (0 : Fin 1) p d) : EReal) * (x2 (ix2 d q) : EReal) := by
  refine (plain_base.matmul_zero_apply_formats none _ _ p q).trans ?_
  refine Finset.sum_congr rfl fun d _ => ?_
  rw [rows_apply, shapeCast_self]

/-- The low-rank projection on the tile: Σ_d x(0,p,d) · lo(0,d,r). -/
theorem low_apply (x0 : FVec Ideal S1x512x4096 .bf16) (x7 : FVec Ideal S1x4096x16 .bf16) (p : Fin 512) (r : Fin 16) :
    matmul (F := Ideal) dot_S512x4096_S4096x16_S512x16_1_0_0_1_n_n none
        (shapeCast S512x4096 x0 shapeCasts_S1x512x4096_S512x4096) (shapeCast S4096x16 x7 shapeCasts_S1x4096x16_S4096x16)
        (constant (F := Ideal) S512x16 .f32 0x00000000#32) (ix2 p r)
      = ∑ d : Fin 4096, (x0 (ix3 (0 : Fin 1) p d) : EReal) * (x7 (ix3 (0 : Fin 1) d r) : EReal) := by
  refine (plain_low.matmul_zero_apply_formats none _ _ p r).trans ?_
  refine Finset.sum_congr rfl fun d _ => ?_
  rw [rows_apply, low_rows_apply]

/-- The projection taken back up: Σ_r L(p,r) · up(0,r,q); narrowing `L` to bf16 first changes nothing over the
    extended reals. -/
theorem up_apply (L : FVec Ideal S512x16 .f32) (x9 : FVec Ideal S1x16x1024 .bf16) (p : Fin 512) (q : Fin 1024) :
    matmul (F := Ideal) dot_S512x16_S16x1024_S512x1024_1_0_0_1_n_n none
        (truncf .bf16 L bitsLt_bf16_f32) (shapeCast S16x1024 x9 shapeCasts_S1x16x1024_S16x1024)
        (constant (F := Ideal) S512x1024 .f32 0x00000000#32) (ix2 p q)
      = ∑ r : Fin 16, (L (ix2 p r) : EReal) * (x9 (ix3 (0 : Fin 1) r q) : EReal) := by
  refine (plain_up.matmul_zero_apply_formats none _ _ p q).trans ?_
  refine Finset.sum_congr rfl fun r _ => ?_
  rw [truncf_apply, up_rows_apply]

/-- The bias piece spread over the tile's rows. -/
theorem bias_apply (x5 : FVec Ideal S1x1024 .f32) (p : Fin 512) (q : Fin 1024) :
    broadcastTo S512x1024 (shapeCast S1x1024 x5 shapeCasts_S1x1024_S1x1024) broadcasts_S1x1024_S512x1024 (ix2 p q)
      = x5 (ix2 (0 : Fin 1) q) := by
  rw [shapeCast_self]
  exact LibRowLayout.broadcastTo_1b_ab_apply x5 _ p q

/-- THE TILE: the body's stored value at (u, p, q) is `tileEntry` of its five loaded blocks at (p, q). -/
theorem pay_apply (x0 : FVec Ideal S1x512x4096 .bf16) (x2 : FVec Ideal S4096x1024 .bf16) (x5 : FVec Ideal S1x1024 .f32)
    (x7 : FVec Ideal S1x4096x16 .bf16) (x9 : FVec Ideal S1x16x1024 .bf16) (u : Fin 1) (p : Fin 512) (q : Fin 1024) :
    k0_pay1 (F := Ideal) x0 x2 x5 x7 x9 (ix3 u p q) = tileEntry x0 x2 x5 x7 x9 p q := by
  unfold k0_pay1
  refine (LibFlatten3.shapeCast_mc_abc_apply _ _ u p q p (by have := u.isLt; omega)).trans ?_
  unfold tileEntry
  rw [addf_apply, addf_apply, mulf_apply, broadcast_apply, base_apply, bias_apply, up_apply]
  simp only [low_apply]
  rfl

end Cert.RoutedLora

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibSwapLastAxes.lean ====
/-
  A three-axis array with its last two axes swapped, read at an entry given by its coordinates: the transpose
  `[a, b, d] → [a, d, b]` (permutation [0, 2, 1]) at (i, k, j) is the operand at (i, j, k).  It holds for any extents and
  for entries of any type.
-/
import Idealize.ShloMosaic.Lib.Pipeline.Value
import Idealize.ShloMosaic.Lib.ValueIdx

noncomputable section

namespace Cert.LibSwapLastAxes

open Idealize.ShloMosaic Idealize.ShloMosaic.ValueIdx

/-- Swapping the last two of three axes: the result at (i, k, j) is the operand at (i, j, k). -/
theorem transpose021_apply {α : Type} {a b d : ℕ} (h : (⟨3, ![a, b, d]⟩ : Shape).Transposes [0, 2, 1] ⟨3, ![a, d, b]⟩)
    (x : (⟨3, ![a, b, d]⟩ : Shape).Idx → α) (i : Fin a) (k : Fin d) (j : Fin b) :
    transpose ⟨3, ![a, d, b]⟩ [0, 2, 1] x h (ix3 i k j) = x (ix3 i j k) := by
  refine transpose_apply [0, 2, 1] x h (ix3 i k j) (ix3 i j k) fun bx => ?_
  match bx with
  | ⟨0, _⟩ => rfl
  | ⟨1, _⟩ => rfl
  | ⟨2, _⟩ => rfl

end Cert.LibSwapLastAxes

end
-- ==== Proof.HostWindows.lean ====
/-
  The arrays the tiled region is handed, as functions of the program's arguments.

  Before the region the program narrows `x` to bf16; transposes `W` and narrows it; views the bias vector as a one-row
  array; selects, for each batch, the two low-rank factors of the expert that batch is routed to (a gather of rows by the
  routing vector, negative entries wrapped once), swaps the last two axes of each selection and narrows it.  Over the
  extended reals narrowing is the identity, so entry by entry the five arrays are: `x` itself; `W` with its coordinates
  swapped; the bias vector; the selected factors with their last two coordinates swapped.  The selections themselves are
  named (`selA`, `selB`) and never opened: both programs form them by the same operations.
-/
import proofs.«167771_j2843268350541_1_alg».proof.Proof.Gen.KernelIdeal.Frame
import proofs.«167771_j2843268350541_1_alg».proof.Proof.LibJoinedRows
import proofs.«167771_j2843268350541_1_alg».proof.Proof.LibRowLayout
import proofs.«167771_j2843268350541_1_alg».proof.Proof.LibSwapLastAxes
import Idealize.ShloMosaic.Lib.Pipeline.Value
import Idealize.ShloMosaic.Lib.ValueIdx
import Idealize.ShloMosaic.Lib.StableHlo.Run

noncomputable section

namespace Cert.RoutedLora

open Idealize.ShloMosaic Idealize.ShloMosaic.ValueIdx Idealize.ShloMosaic.TcCoe Idealize.SL.Sem
open Cert.KernelIdeal Cert.KernelIdeal.Gen

/-- The routing vector as a column of row numbers: an entry below zero has the number of experts added once. -/
def routeColumn (e : (⟨S8, .i32⟩ : BufTy).Contents (Elt Ideal)) : (⟨S8x1, .i32⟩ : BufTy).Contents (Elt Ideal) :=
  broadcastInDim S8x1 ![0] bcast_S8_S8x1_0
    (select (cmpi .slt e (broadcastInDim S8 ![] bcast_S_S8 (constantI S_ 32 0#32)))
      (addi e (broadcastInDim S8 ![] bcast_S_S8 (constantI S_ 32 8#32))) e)

/-- Each batch's first low-rank factor: row `bb` is the factor of the expert batch `bb` is routed to. -/
def selA (a : (⟨S8x16x4096, .f32⟩ : BufTy).Contents (Elt Ideal)) (e : (⟨S8, .i32⟩ : BufTy).Contents (Elt Ideal)) :
    (⟨S8x16x4096, .f32⟩ : BufTy).Contents (Elt Ideal) :=
  Host.gather gather_S8x16x4096_S8x1_S8x16x4096_12_0_n_n_0_1_1164096 a (routeColumn e)

/-- Each batch's second low-rank factor. -/
def selB (b : (⟨S8x4096x16, .f32⟩ : BufTy).Contents (Elt Ideal)) (e : (⟨S8, .i32⟩ : BufTy).Contents (Elt Ideal)) :
    (⟨S8x4096x16, .f32⟩ : BufTy).Contents (Elt Ideal) :=
  Host.gather gather_S8x4096x16_S8x1_S8x4096x16_12_0_n_n_0_1_1409616 b (routeColumn e)

variable (m : (ℓ : Loc nD τ sig) → Buf (Elt Ideal) ℓ) (c : Dev nD)

/-- Window 0's array is `x`, narrowed. -/
theorem V_x : (V m c main_v0 : S8x2048x4096.Idx → EReal)
    = truncf (F := Ideal) .bf16 (m ((c.tc : Thread nD τ).loc main_arg0)) bitsLt_bf16_f32 := by
  dsimp only [Gen.V, Gen.hostOps0]; after_results <;> rfl

/-- Window 1's array is `W` transposed, narrowed. -/
theorem V_wt : (V m c main_v2 : S4096x4096.Idx → EReal)
    = truncf (F := Ideal) .bf16 (transpose S4096x4096 [1, 0] (m ((c.tc : Thread nD τ).loc main_arg1)) transposes_S4096x4096_S4096x4096_1_0) bitsLt_bf16_f32 := by
  dsimp only [Gen.V, Gen.hostOps0]; after_results <;> rfl

/-- Window 2's array is the bias vector as one row. -/
theorem V_bias : (V m c main_v3 : S1x4096.Idx → EReal)
    = shapeCast S1x4096 (m ((c.tc : Thread nD τ).loc main_arg2)) shapeCasts_S4096_S1x4096 := by
  dsimp only [Gen.V, Gen.hostOps0]; after_results <;> rfl

set_option maxHeartbeats 1000000 in
/-- Window 3's array is the selected first factors with their last two axes swapped, narrowed. -/
theorem V_lo : (V m c main_v19 : S8x4096x16.Idx → EReal)
    = truncf (F := Ideal) .bf16 (transpose S8x4096x16 [0, 2, 1]
        (selA (m ((c.tc : Thread nD τ).loc main_arg3)) (m ((c.tc : Thread nD τ).loc main_arg5)))
        transposes_S8x16x4096_S8x4096x16_0_2_1) bitsLt_bf16_f32 := by
  dsimp only [Gen.V, Gen.hostOps0]; after_results_simp <;> rfl

set_option maxHeartbeats 1000000 in
/-- Window 4's array is the selected second factors with their last two axes swapped, narrowed. -/
theorem V_up : (V m c main_v21 : S8x16x4096.Idx → EReal)
    = truncf (F := Ideal) .bf16 (transpose S8x16x4096 [0, 2, 1]
        (selB (m ((c.tc : Thread nD τ).loc main_arg4)) (m ((c.tc : Thread nD τ).loc main_arg5)))
        transposes_S8x4096x16_S8x16x4096_0_2_1) bitsLt_bf16_f32 := by
  dsimp only [Gen.V, Gen.hostOps0]; after_results_simp <;> rfl

/-! ## The same, entry by entry -/

theorem V_x_apply (i : S8x2048x4096.Idx) :
    (V m c main_v0 : S8x2048x4096.Idx → EReal) i = m ((c.tc : Thread nD τ).loc main_arg0) i := by
  rw [V_x]; rfl

theorem V_wt_apply (d o : Fin 4096) :
    (V m c main_v2 : S4096x4096.Idx → EReal) (ix2 d o) = m ((c.tc : Thread nD τ).loc main_arg1) (ix2 o d) := by
  rw [V_wt, truncf_apply]
  exact LibJoinedRows.transpose2_apply _ _ d o

theorem V_bias_apply (o : Fin 4096) :
    (V m c main_v3 : S1x4096.Idx → EReal) (ix2 (0 : Fin 1) o) = m ((c.tc : Thread nD τ).loc main_arg2) (ix1 o) := by
  rw [V_bias]
  exact LibRowLayout.shapeCast_b_1b_apply _ _ (0 : Fin 1) o

theorem V_lo_apply (bb : Fin 8) (d : Fin 4096) (r : Fin 16) :
    (V m c main_v19 : S8x4096x16.Idx → EReal) (ix3 bb d r)
      = selA (m ((c.tc : Thread nD τ).loc main_arg3)) (m ((c.tc : Thread nD τ).loc main_arg5)) (ix3 bb r d) := by
  rw [V_lo, truncf_apply]
  exact LibSwapLastAxes.transpose021_apply _ _ bb d r

theorem V_up_apply (bb : Fin 8) (r : Fin 16) (o : Fin 4096) :
    (V m c main_v21 : S8x16x4096.Idx → EReal) (ix3 bb r o)
      = selB (m ((c.tc : Thread nD τ).loc main_arg4)) (m ((c.tc : Thread nD τ).loc main_arg5)) (ix3 bb o r) := by
  rw [V_up, truncf_apply]
  exact LibSwapLastAxes.transpose021_apply _ _ bb r o

end Cert.RoutedLora

end
-- ==== Proof.TiledArray.lean ====
/-
  From tiles to the whole result array.

  The region runs the body once per point of an 8 × 4 × 4 grid (batch, block of 512 positions, block of 1024 output
  features).  At a point with grid coordinates (bb, si, oo) the body is handed: positions si·512 … si·512+511 of batch
  `bb` of `x`; columns oo·1024 … of the transposed weights and of the bias row; batch `bb`'s two factors, the second cut
  to the same columns; and it writes the [1, 512, 1024] tile of the result at batch `bb`, those positions and those
  features.  So element (u, p, q) of what a point writes is the layer's entry (bb, si·512 + p, oo·1024 + q) over the
  re-laid operands: the tile's entry reads exactly the operands' entries that entry reads.  The 128 tiles are disjoint
  and fill the result, hence the array after the run is the layer over the re-laid operands, which is the layer itself.
-/
import proofs.«167771_j2843268350541_1_alg».proof.Proof.Gen.KernelIdeal.Value
import proofs.«167771_j2843268350541_1_alg».proof.Proof.TileValue
import proofs.«167771_j2843268350541_1_alg».proof.Proof.HostWindows
import Idealize.ShloMosaic.Lib.Pipeline.Value
import Idealize.ShloMosaic.Lib.ValueIdx

set_option maxRecDepth 16384

noncomputable section

open scoped BigOperators

namespace Cert.RoutedLora

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the 128 grid points: which block of its array each operand's window is on,
    relative to the result's tile (block indices (bb, si, oo)). -/
theorem tile_indices : ∀ t : Fin cfg0.N,
    win0_0.index t (0 : Fin 3) = win0_5.index t (0 : Fin 3)
    ∧ win0_0.index t (1 : Fin 3) = win0_5.index t (1 : Fin 3)
    ∧ win0_0.index t (2 : Fin 3) = 0
    ∧ win0_1.index t (0 : Fin 2) = 0
    ∧ win0_1.index t (1 : Fin 2) = win0_5.index t (2 : Fin 3)
    ∧ win0_2.index t (0 : Fin 2) = 0
    ∧ win0_2.index t (1 : Fin 2) = win0_5.index t (2 : Fin 3)
    ∧ win0_3.index t (0 : Fin 3) = win0_5.index t (0 : Fin 3)
    ∧ win0_3.index t (1 : Fin 3) = 0
    ∧ win0_3.index t (2 : Fin 3) = 0
    ∧ win0_4.index t (0 : Fin 3) = win0_5.index t (0 : Fin 3)
    ∧ win0_4.index t (1 : Fin 3) = 0
    ∧ win0_4.index t (2 : Fin 3) = win0_5.index t (2 : Fin 3)
    ∧ win0_5.index t (0 : Fin 3) ≤ 7 ∧ win0_5.index t (1 : Fin 3) ≤ 3 ∧ win0_5.index t (2 : Fin 3) ≤ 3 :=
  (by decide +kernel : ∀ t : Fin grid0.N, _)

/-- Every tile position (bb, si, oo) is some grid point's. -/
theorem tile_onto : ∀ (q0 : Fin 8) (q1 : Fin 4) (q2 : Fin 4), ∃ t : Fin cfg0.N, win0_5.index t = ![q0.val, q1.val, q2.val] :=
  (by decide +kernel : ∀ (q0 : Fin 8) (q1 : Fin 4) (q2 : Fin 4), ∃ t : Fin grid0.N, win0_5.index t = ![q0.val, q1.val, q2.val])

/-! ## Each operand's block, read where the tile's entry reads it -/

section Blocks
variable (c : Dev nD) (t : Fin cfg0.N)

/-- `x`'s block: element (u, p, d) is `x` at (bb, si·512 + p, d). -/
theorem blk_x (u : Fin 1) (p : Fin 512) (d : Fin 4096) (bb : Fin 8) (s : Fin 2048)
    (hbb : bb.val = win0_5.index t (0 : Fin 3)) (hs : s.val = win0_5.index t (1 : Fin 3) * 512 + p.val) :
    (iblk m c 0 t : S1x512x4096.Idx → EReal) (ix3 u p d) = (V m c main_v0 : S8x2048x4096.Idx → EReal) (ix3 bb s d) := by
  obtain ⟨e0, e1, e2, -⟩ := tile_indices t
  show V m c main_v0 (((cfg0.win 0).blk t).view.emb (ix3 u p d)) = V m c main_v0 (ix3 bb s d)
  refine congrArg (V m c main_v0) (funext fun a => Fin.ext ?_)
  have hu := u.isLt
  match a with
  | ⟨0, _⟩ => show win0_0.index t (0 : Fin 3) * 1 + 1 * u.val = bb.val; omega
  | ⟨1, _⟩ => show win0_0.index t (1 : Fin 3) * 512 + 1 * p.val = s.val; omega
  | ⟨2, _⟩ => show win0_0.index t (2 : Fin 3) * 4096 + 1 * d.val = d.val; omega

/-- The transposed weights' block: element (d, q) is `Wt` at (d, oo·1024 + q). -/
theorem blk_wt (d : Fin 4096) (q : Fin 1024) (o : Fin 4096) (ho : o.val = win0_5.index t (2 : Fin 3) * 1024 + q.val) :
    (iblk m c 1 t : S4096x1024.Idx → EReal) (ix2 d q) = (V m c main_v2 : S4096x4096.Idx → EReal) (ix2 d o) := by
  obtain ⟨-, -, -, e3, e4, -⟩ := tile_indices t
  show V m c main_v2 (((cfg0.win 1).blk t).view.emb (ix2 d q)) = V m c main_v2 (ix2 d o)
  refine congrArg (V m c main_v2) (funext fun a => Fin.ext ?_)
  match a with
  | ⟨0, _⟩ => show win0_1.index t (0 : Fin 2) * 4096 + 1 * d.val = d.val; omega
  | ⟨1, _⟩ => show win0_1.index t (1 : Fin 2) * 1024 + 1 * q.val = o.val; omega

/-- The bias row's block: element (0, q) is the row at (0, oo·1024 + q). -/
theorem blk_bias (q : Fin 1024) (o : Fin 4096) (ho : o.val = win0_5.index t (2 : Fin 3) * 1024 + q.val) :
    (iblk m c 2 t : S1x1024.Idx → EReal) (ix2 (0 : Fin 1) q) = (V m c main_v3 : S1x4096.Idx → EReal) (ix2 (0 : Fin 1) o) := by
  obtain ⟨-, -, -, -, -, e5, e6, -⟩ := tile_indices t
  show V m c main_v3 (((cfg0.win 2).blk t).view.emb (ix2 (0 : Fin 1) q)) = V m c main_v3 (ix2 (0 : Fin 1) o)
  refine congrArg (V m c main_v3) (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

/-- The first factor's block: element (0, d, r) is the array at (bb, d, r). -/
theorem blk_lo (d : Fin 4096) (r : Fin 16) (bb : Fin 8) (hbb : bb.val = win0_5.index t (0 : Fin 3)) :
    (iblk m c 3 t : S1x4096x16.Idx → EReal) (ix3 (0 : Fin 1) d r) = (V m c main_v19 : S8x4096x16.Idx → EReal) (ix3 bb d r) := by
  obtain ⟨-, -, -, -, -, -, -, e7, e8, e9, -⟩ := tile_indices t
  show V m c main_v19 (((cfg0.win 3).blk t).view.emb (ix3 (0 : Fin 1) d r)) = V m c main_v19 (ix3 bb d r)
  refine congrArg (V m c main_v19) (funext fun a => Fin.ext ?_)
  match a with
  | ⟨0, _⟩ => show win0_3.index t (0 : Fin 3) * 1 + 1 * 0 = bb.val; omega
  | ⟨1, _⟩ => show win0_3.index t (1 : Fin 3) * 4096 + 1 * d.val = d.val; omega
  | ⟨2, _⟩ => show win0_3.index t (2 : Fin 3) * 16 + 1 * r.val = r.val; omega

/-- The second factor's block: element (0, r, q) is the array at (bb, r, oo·1024 + q). -/
theorem blk_up (r : Fin 16) (q : Fin 1024) (bb : Fin 8) (o : Fin 4096) (hbb : bb.val = win0_5.index t (0 : Fin 3))
    (ho : o.val = win0_5.index t (2 : Fin 3) * 1024 + q.val) :
    (iblk m c 4 t : S1x16x1024.Idx → EReal) (ix3 (0 : Fin 1) r q) = (V m c main_v21 : S8x16x4096.Idx → EReal) (ix3 bb r o) := by
  obtain ⟨-, -, -, -, -, -, -, -, -, -, e10, e11, e12, -⟩ := tile_indices t
  show V m c main_v21 (((cfg0.win 4).blk t).view.emb (ix3 (0 : Fin 1) r q)) = V m c main_v21 (ix3 bb r o)
  refine congrArg (V m c main_v21) (funext fun a => Fin.ext ?_)
  match a with
  | ⟨0, _⟩ => show win0_4.index t (0 : Fin 3) * 1 + 1 * 0 = bb.val; omega
  | ⟨1, _⟩ => show win0_4.index t (1 : Fin 3) * 16 + 1 * r.val = r.val; omega
  | ⟨2, _⟩ => show win0_4.index t (2 : Fin 3) * 1024 + 1 * q.val = o.val; omega

/-- The tile's entry (p, q) over the point's blocks is the layer's entry (bb, si·512 + p, oo·1024 + q) over the re-laid
    operand arrays: summand by summand the same entries are read. -/
theorem tile_entry (p : Fin 512) (q : Fin 1024) (bb : Fin 8) (s : Fin 2048) (o : Fin 4096)
    (hbb : bb.val = win0_5.index t (0 : Fin 3)) (hs : s.val = win0_5.index t (1 : Fin 3) * 512 + p.val)
    (ho : o.val = win0_5.index t (2 : Fin 3) * 1024 + q.val) :
    tileEntry (iblk m c 0 t) (iblk m c 1 t) (iblk m c 2 t) (iblk m c 3 t) (iblk m c 4 t) p q
      = tiledEntry (V m c main_v0) (V m c main_v2) (V m c main_v3) (V m c main_v19) (V m c main_v21) bb s o := by
  unfold tileEntry tiledEntry
  refine congrArg₂ (· + ·) (congrArg₂ (· + ·) (Finset.sum_congr rfl fun d _ => ?_) ?_)
    (congrArg (· * scale) (Finset.sum_congr rfl fun r _ => congrArg₂ (· * ·) (Finset.sum_congr rfl fun d _ => ?_) ?_))
  · exact congrArg₂ (· * ·) (blk_x m c t (0 : Fin 1) p d bb s hbb hs) (blk_wt m c t d q o ho)
  · exact blk_bias m c t q o ho
  · exact congrArg₂ (· * ·) (blk_x m c t (0 : Fin 1) p d bb s hbb hs) (blk_lo m c t d r bb hbb)
  · exact blk_up m c t r q bb o hbb ho

end Blocks

/-! ## What a point writes back, the cover, and the array after the run -/

/-- WHAT POINT `t` WRITES BACK is its tile of the layer over the re-laid operand arrays. -/
theorem flushed_eq (c : Dev nD) (t : Fin cfg0.N) :
    (dats m 0 c).flushed 5 t = ((cfg0.win 5).blk t).view.read (Elt Ideal)
      (tiledLayer (V m c main_v0) (V m c main_v2) (V m c main_v3) (V m c main_v19) (V m c main_v21)) := by
  rw [Cert.KernelIdeal.Value.flushed5]
  unfold out0_5
  rw [View.canon_unit_zero zeros3]
  simp only [View.ld_unit_zero (S := S1x512x4096) zeros3, View.ld_unit_zero (S := S4096x1024) zeros2,
    View.ld_unit_zero (S := S1x1024) zeros2, View.ld_unit_zero (S := S1x4096x16) zeros3,
    View.ld_unit_zero (S := S1x16x1024) zeros3]
  show (k0_pay1 (F := Ideal) (iblk m c 0 t) (iblk m c 1 t) (iblk m c 2 t) (iblk m c 3 t) (iblk m c 4 t) : S1x512x1024.Idx → EReal)
    = fun y => tiledLayer (V m c main_v0) (V m c main_v2) (V m c main_v3) (V m c main_v19) (V m c main_v21)
        (((cfg0.win 5).blk t).view.emb y)
  funext y
  obtain ⟨u, p, q, rfl⟩ : ∃ (u : Fin 1) (p : Fin 512) (q : Fin 1024), y = ix3 u p q := ⟨y 0, y 1, y 2, eq_ix3 y⟩
  refine (pay_apply (iblk m c 0 t) (iblk m c 1 t) (iblk m c 2 t) (iblk m c 3 t) (iblk m c 4 t) u p q).trans ?_
  obtain ⟨-, -, -, -, -, -, -, -, -, -, -, -, -, b0, b1, b2⟩ := tile_indices t
  have hu := u.isLt
  have hp := p.isLt
  have hq := q.isLt
  exact tile_entry m c t p q ⟨win0_5.index t (0 : Fin 3) * 1 + 1 * u.val, by omega⟩
    ⟨win0_5.index t (1 : Fin 3) * 512 + 1 * p.val, by omega⟩ ⟨win0_5.index t (2 : Fin 3) * 1024 + 1 * q.val, by omega⟩
    (by show win0_5.index t (0 : Fin 3) * 1 + 1 * u.val = _; omega)
    (by show win0_5.index t (1 : Fin 3) * 512 + 1 * p.val = _; omega)
    (by show win0_5.index t (2 : Fin 3) * 1024 + 1 * q.val = _; omega)

/-- An index of the result is in point `t`'s tile iff each coordinate is in the tile's range on its axis. -/
theorem mem_tile (t : Fin cfg0.N) (i : S8x2048x4096.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v22).slice (win0_5.rect t)).set ↔ _
  rw [View.set_slice_whole, Rect.mem_set_unit]
  exact Iff.rfl

/-- The tiles fill the result: entry (bb, s, o) is in the tile at (bb, s / 512, o / 1024). -/
theorem tiles_cover (i : S8x2048x4096.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 4096 := (i 2).isLt
  obtain ⟨t, ht⟩ := tile_onto ⟨(i 0).val, hi0⟩ ⟨(i 1).val / 512, by omega⟩ ⟨(i 2).val / 1024, by omega⟩
  have q0 : win0_5.index t (0 : Fin 3) = (i 0).val := congrFun ht 0
  have q1 : win0_5.index t (1 : Fin 3) = (i 1).val / 512 := congrFun ht 1
  have q2 : win0_5.index t (2 : Fin 3) = (i 2).val / 1024 := congrFun ht 2
  refine ⟨t, flush0_5 t, ?_⟩
  rw [mem_tile]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- THE RESULT ARRAY after the run, over the re-laid operand arrays. -/
theorem final_tiled (c : Dev nD) : (dats m 0 c).arrAt 5 cfg0.N
    = tiledLayer (V m c main_v0) (V m c main_v2) (V m c main_v3) (V m c main_v19) (V m c main_v21) :=
  (dats m 0 c).arrAt_eq_of_cover 5 _ (fun t _ => flushed_eq m c t) tiles_cover

/-- The re-laid operand arrays are re-layings of the arguments and of the two selections, so that is the layer. -/
theorem tiled_is_layer (c : Dev nD) :
    tiledLayer (V m c main_v0) (V m c main_v2) (V m c main_v3) (V m c main_v19) (V m c main_v21)
      = layer (m ((c.tc : Thread nD τ).loc main_arg0)) (m ((c.tc : Thread nD τ).loc main_arg1))
          (m ((c.tc : Thread nD τ).loc main_arg2))
          (selA (m ((c.tc : Thread nD τ).loc main_arg3)) (m ((c.tc : Thread nD τ).loc main_arg5)))
          (selB (m ((c.tc : Thread nD τ).loc main_arg4)) (m ((c.tc : Thread nD τ).loc main_arg5))) := by
  have hx : (V m c main_v0 : S8x2048x4096.Idx → EReal) = m ((c.tc : Thread nD τ).loc main_arg0) :=
    funext (V_x_apply m c)
  rw [hx]
  exact tiledLayer_eq_layer _ _ _ _ _ _ _ _ _ (V_wt_apply m c) (V_bias_apply m c) (V_lo_apply m c) (V_up_apply m c)

/-- THE KERNEL'S RUN: every weakly fair execution terminates with the result array holding the layer of the arguments
    and the two selections, the arguments unchanged. -/
theorem run : θ_run defs (onTc (τ := τ) (main (F := Ideal))) ⟨m, fun _ => 0, ρ⟩ fun r => ∀ c : Dev nD,
      r.2.mem ((c.tc : Thread nD τ).loc main_v22)
        = layer (m ((c.tc : Thread nD τ).loc main_arg0)) (m ((c.tc : Thread nD τ).loc main_arg1))
            (m ((c.tc : Thread nD τ).loc main_arg2))
            (selA (m ((c.tc : Thread nD τ).loc main_arg3)) (m ((c.tc : Thread nD τ).loc main_arg5)))
            (selB (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans ((final_tiled m c).trans (tiled_is_layer m c)), (h c).2⟩)
    (Cert.KernelIdeal.Value.run_blocks m ρ)

end Cert.RoutedLora

end
-- ==== Proof.RefLayer.lean ====
/-
  The reference program computes the layer.

  Read one operation at a time, the reference's result at entry (bb, s, o) is: the contraction of `x`'s last axis with
  `W`'s last axis, plus the bias vector spread over batches and positions, plus the scaling word times the batched
  contraction (over the rank axis) of [the batched contraction of `x` with the selected first factors over the feature
  axis] with the selected second factors.  That is `entry` with the two gathers as the selected factors; the gathers
  stay closed.
-/
import proofs.«167771_j2843268350541_1_alg».proof.Proof.Gen.ReferenceIdeal.Read
import proofs.«167771_j2843268350541_1_alg».proof.Proof.Spec

noncomputable section

open scoped BigOperators

namespace Cert.RoutedLora

open Idealize.ShloMosaic Idealize.ShloMosaic.ValueIdx
open Cert.ReferenceIdeal Cert.ReferenceIdeal.Read

/-- The reference's result at an entry. -/
theorem ref_entry (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S8x16x4096, .f32⟩ : BufTy).Contents (Elt Ideal))
    (x4 : (⟨S8x4096x16, .f32⟩ : BufTy).Contents (Elt Ideal)) (x5 : (⟨S8, .i32⟩ : BufTy).Contents (Elt Ideal))
    (bb : Fin 8) (s : Fin 2048) (o : Fin 4096) :
    val_main_v22 (F := Ideal) x0 x1 x2 x3 x4 x5 (ix3 bb s o)
      = entry x0 x1 x2 (val_main_v10 (F := Ideal) x3 x5) (val_main_v17 (F := Ideal) x4 x5) bb s o := by
  have e0l : ∀ k : Fin 4096, lidx_main_v0 (ix3 bb s o) k = ix3 bb s k := fun k => funext fun a => Fin.ext (by
    match a with | ⟨0, _⟩ => rfl | ⟨1, _⟩ => rfl | ⟨2, _⟩ => rfl)
  have e0r : ∀ k : Fin 4096, ridx_main_v0 (ix3 bb s o) k = ix2 o k := fun k => funext fun a => Fin.ext (by
    match a with | ⟨0, _⟩ => rfl | ⟨1, _⟩ => rfl)
  have e2 : idx_main_v1 (idx_main_v2 (ix3 bb s o)) = ix1 o := funext fun a => Fin.ext (by
    match a with | ⟨0, _⟩ => rfl)
  have e19l : ∀ k : Fin 16, lidx_main_v19 (ix3 bb s o) k = ix3 bb s k := fun k => funext fun a => Fin.ext (by
    match a with | ⟨0, _⟩ => rfl | ⟨1, _⟩ => rfl | ⟨2, _⟩ => rfl)
  have e19r : ∀ k : Fin 16, ridx_main_v19 (ix3 bb s o) k = ix3 bb o k := fun k => funext fun a => Fin.ext (by
    match a with | ⟨0, _⟩ => rfl | ⟨1, _⟩ => rfl | ⟨2, _⟩ => rfl)
  have e18l : ∀ (r : Fin 16) (k : Fin 4096), lidx_main_v18 (ix3 bb s r) k = ix3 bb s k := fun r k => funext fun a => Fin.ext (by
    match a with | ⟨0, _⟩ => rfl | ⟨1, _⟩ => rfl | ⟨2, _⟩ => rfl)
  have e18r : ∀ (r : Fin 16) (k : Fin 4096), ridx_main_v18 (ix3 bb s r) k = ix3 bb r k := fun r k => funext fun a => Fin.ext (by
    match a with | ⟨0, _⟩ => rfl | ⟨1, _⟩ => rfl | ⟨2, _⟩ => rfl)
  rw [val_main_v22_apply, val_main_v3_apply, val_main_v0_apply, val_main_v2_apply, val_main_v1_apply, val_main_v21_apply,
    val_main_v19_apply, val_main_v20_apply, val_main_cst_apply]
  simp only [e0l, e0r, e2, e19l, e19r, val_main_v18_apply, e18l, e18r]
  rfl

/-- The reference's result array is the layer of its arguments and the two selections. -/
theorem ref_layer (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S8x16x4096, .f32⟩ : BufTy).Contents (Elt Ideal))
    (x4 : (⟨S8x4096x16, .f32⟩ : BufTy).Contents (Elt Ideal)) (x5 : (⟨S8, .i32⟩ : BufTy).Contents (Elt Ideal)) :
    val_main_v22 (F := Ideal) x0 x1 x2 x3 x4 x5
      = layer x0 x1 x2 (val_main_v10 (F := Ideal) x3 x5) (val_main_v17 (F := Ideal) x4 x5) :=
  funext fun i => by
    rw [eq_ix3 i]
    exact ref_entry x0 x1 x2 x3 x4 x5 (i 0) (i 1) (i 2)

end Cert.RoutedLora

end
-- ==== Proof.lean ====
/-
  A routed low-rank-adapted linear layer: the tiled kernel against its einsum reference, over the extended reals.

  Both programs compute, at batch bb, position s and output feature o,

      (Σ_d x[bb,s,d] · W[o,d]  +  b[o])  +  (Σ_r (Σ_d x[bb,s,d] · A'[bb,r,d]) · B'[bb,o,r]) · 2

  where A' and B' are the low-rank factors selected per batch by the routing vector — selected by the same gather, on the
  same wrapped row numbers, in both programs, so the selection is carried as one closed term on both sides.

  The kernel re-lays its operands first (W transposed, the bias as one row, the selected factors with their last two axes
  swapped, everything narrowed to bf16) and then covers the result with 8 × 4 × 4 disjoint tiles, each the sum of two
  matrix products and a spread bias row; the low-rank product is narrowed to bf16 between its two steps.  Over the
  extended reals narrowing is the identity, a matrix product into a zero accumulator is the plain sum over the contracted
  axis, and a re-laid operand read at swapped coordinates is the operand itself: entry by entry the tile is the layer
  (Proof/TileValue, Proof/HostWindows, Proof/TiledArray).  The reference's three contractions, read one operation at a
  time, are the same sums with the same grouping (Proof/RefLayer).  Sums and products are taken as they stand on both
  sides — nothing is distributed, cancelled or re-associated — so finiteness of the inputs is never used.

  The three frames are the generated ones (the reference's is its generated run with the result dropped); the kernel's
  idealization rewrote no operation, so there is nothing to preserve.
-/
import proofs.«167771_j2843268350541_1_alg».proof.Defs
import proofs.«167771_j2843268350541_1_alg».proof.Proof.Gen.Kernel
import proofs.«167771_j2843268350541_1_alg».proof.Proof.Gen.Kernel.Skeleton
import proofs.«167771_j2843268350541_1_alg».proof.Proof.Gen.Kernel.Launch
import proofs.«167771_j2843268350541_1_alg».proof.Proof.Gen.Kernel.Points
import proofs.«167771_j2843268350541_1_alg».proof.Proof.Gen.Kernel.Frame
import proofs.«167771_j2843268350541_1_alg».proof.Proof.Gen.KernelIdeal
import proofs.«167771_j2843268350541_1_alg».proof.Proof.Gen.KernelIdeal.Skeleton
import proofs.«167771_j2843268350541_1_alg».proof.Proof.Gen.KernelIdeal.Launch
import proofs.«167771_j2843268350541_1_alg».proof.Proof.Gen.KernelIdeal.Points
import proofs.«167771_j2843268350541_1_alg».proof.Proof.Gen.KernelIdeal.Frame
import proofs.«167771_j2843268350541_1_alg».proof.Proof.Gen.KernelIdeal.Value
import proofs.«167771_j2843268350541_1_alg».proof.Proof.Gen.ReferenceIdeal
import proofs.«167771_j2843268350541_1_alg».proof.Proof.Gen.ReferenceIdeal.Run
import proofs.«167771_j2843268350541_1_alg».proof.Proof.Gen.ReferenceIdeal.Read
import proofs.«167771_j2843268350541_1_alg».proof.Proof.Gen.Pre_finite_inputs
import proofs.«167771_j2843268350541_1_alg».proof.Proof.TiledArray
import proofs.«167771_j2843268350541_1_alg».proof.Proof.RefLayer
import Idealize.ShloMosaic.Adequacy
import Idealize.ShloMosaic.Init

noncomputable section

namespace Cert.Proof

open Idealize.ShloMosaic Idealize.SL.Sem

/-- The reference selects each batch's first factor by the operations the kernel's program uses: one term. -/
theorem selA_eq (x3 : (⟨Cert.ReferenceIdeal.S8x16x4096, .f32⟩ : BufTy).Contents (Elt Ideal))
    (x5 : (⟨Cert.ReferenceIdeal.S8, .i32⟩ : BufTy).Contents (Elt Ideal)) :
    Cert.ReferenceIdeal.Read.val_main_v10 (F := Ideal) x3 x5 = Cert.RoutedLora.selA x3 x5 := rfl

/-- And the second factor. -/
theorem selB_eq (x4 : (⟨Cert.ReferenceIdeal.S8x4096x16, .f32⟩ : BufTy).Contents (Elt Ideal))
    (x5 : (⟨Cert.ReferenceIdeal.S8, .i32⟩ : BufTy).Contents (Elt Ideal)) :
    Cert.ReferenceIdeal.Read.val_main_v17 (F := Ideal) x4 x5 = Cert.RoutedLora.selB x4 x5 := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the layer of the (agreeing) arguments and the two selections. -/
theorem algebraic : Cert.algebraic_KernelIdeal_ReferenceIdeal := by
  intro m ρ m' ρ' _ hagree
  refine ⟨_, Cert.RoutedLora.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.RoutedLora.ref_layer, selA_eq, selB_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
